-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x1x2048x2048 : Shape := ⟨4, ![2, 1, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S2x1x2048x2048 32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x1x2048x2048 : Shape := ⟨4, ![2, 1, 2048, 2048]⟩
abbrev S32x2048x64 : Shape := ⟨3, ![32, 2048, 64]⟩
abbrev S2x2048x2048 : Shape := ⟨3, ![2, 2048, 2048]⟩
abbrev S32x2048x2048 : Shape := ⟨3, ![32, 2048, 2048]⟩
abbrev S1x256x64 : Shape := ⟨3, ![1, 256, 64]⟩
abbrev S1x2048x64 : Shape := ⟨3, ![1, 2048, 64]⟩
abbrev S1x256x2048 : Shape := ⟨3, ![1, 256, 2048]⟩
abbrev S256x64 : Shape := ⟨2, ![256, 64]⟩
abbrev S2048x64 : Shape := ⟨2, ![2048, 64]⟩
abbrev S64x2048 : Shape := ⟨2, ![64, 2048]⟩
abbrev S256x2048 : Shape := ⟨2, ![256, 2048]⟩
abbrev S256 : Shape := ⟨1, ![256]⟩
abbrev S256x1 : Shape := ⟨2, ![256, 1]⟩
abbrev S2x16x2048x2048 : Shape := ⟨4, ![2, 16, 2048, 2048]⟩

abbrev nBuf : Space → Nat
  | .hbm => 14
  | .vmem => 12
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x2048x2048, .i32⟩
  | .hbm, ⟨4, _⟩ => ⟨S32x2048x64, .f32⟩
  | .hbm, ⟨5, _⟩ => ⟨S32x2048x64, .f32⟩
  | .hbm, ⟨6, _⟩ => ⟨S32x2048x64, .bf16⟩
  | .hbm, ⟨7, _⟩ => ⟨S32x2048x64, .f32⟩
  | .hbm, ⟨8, _⟩ => ⟨S32x2048x64, .bf16⟩
  | .hbm, ⟨9, _⟩ => ⟨S2x2048x2048, .i32⟩
  | .hbm, ⟨10, _⟩ => ⟨S32x2048x64, .f32⟩
  | .hbm, ⟨11, _⟩ => ⟨S32x2048x2048, .f32⟩
  | .hbm, ⟨12, _⟩ => ⟨S2x16x2048x64, .f32⟩
  | .hbm, ⟨13, _⟩ => ⟨S2x16x2048x2048, .f32⟩
  | .local _ .vmem, ⟨0, _⟩ => ⟨S1x256x64, .f32⟩
  | .local _ .vmem, ⟨1, _⟩ => ⟨S1x256x64, .f32⟩
  | .local _ .vmem, ⟨2, _⟩ => ⟨S1x2048x64, .bf16⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x256x2048, .i32⟩
  | .local _ .vmem, ⟨7, _⟩ => ⟨S1x256x2048, .i32⟩
  | .local _ .vmem, ⟨8, _⟩ => ⟨S1x256x64, .f32⟩
  | .local _ .vmem, ⟨9, _⟩ => ⟨S1x256x64, .f32⟩
  | .local _ .vmem, ⟨10, _⟩ => ⟨S1x256x2048, .f32⟩
  | .local _ .vmem, ⟨11, _⟩ => ⟨S1x256x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  shapeCasts_S2x16x2048x64_S32x2048x64 : S2x16x2048x64.ShapeCasts S32x2048x64
  bitsLt_bf16_f32 : FTy.bits .bf16 < FTy.bits .f32
  shapeCasts_S2x1x2048x2048_S2x2048x2048 : S2x1x2048x2048.ShapeCasts S2x2048x2048
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S256 : S256x2048.Reduces [1] S256
  shapeCasts_S256_S256x1 : S256.ShapeCasts S256x1
  broadcasts_S256x1_S256x2048 : S256x1.Broadcasts S256x2048
  shapeCasts_S256x2048_S1x256x2048 : S256x2048.ShapeCasts S1x256x2048
  shapeCasts_S256x64_S1x256x64 : S256x64.ShapeCasts S1x256x64
  shapeCasts_S32x2048x64_S2x16x2048x64 : S32x2048x64.ShapeCasts S2x16x2048x64
  shapeCasts_S32x2048x2048_S2x16x2048x2048 : S32x2048x2048.ShapeCasts S2x16x2048x2048
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S32x2048x64.size a
  hwx0_0 : ∀ i : grid0.Coords, EltTy.bits .f32 = 32 ∨ (Rect.block (s := S32x2048x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .bf16 = 32 ∨ (Rect.block (s := S32x2048x64) S1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .bf16 = 32 ∨ (Rect.block (s := S32x2048x64) S1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S2x2048x2048.size a
  hwx0_3 : ∀ i : grid0.Coords, EltTy.bits .i32 = 32 ∨ (Rect.block (s := S2x2048x2048) S1x256x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x64.size a ≤ S32x2048x64.size a
  hwx0_4 : ∀ i : grid0.Coords, EltTy.bits .f32 = 32 ∨ (Rect.block (s := S32x2048x64) S1x256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S32x2048x2048.size a
  hwx0_5 : ∀ i : grid0.Coords, EltTy.bits .f32 = 32 ∨ (Rect.block (s := S32x2048x2048) S1x256x2048.size (cc0_transform_5 i) (hinb0_5 i)).WholeWords (EltTy.packing .f32)

variable [Facts₀]

def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S1x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x1x2048x2048 : Shape := ⟨4, ![2, 1, 2048, 2048]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 31
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x2048x2048, .i32⟩
  | .hbm, ⟨4, _⟩ => ⟨S_, .f32⟩
  | .hbm, ⟨5, _⟩ => ⟨S2x16x2048x64, .f32⟩
  | .hbm, ⟨6, _⟩ => ⟨S2x16x2048x64, .f32⟩
  | .hbm, ⟨7, _⟩ => ⟨S2x16x2048x2048, .f32⟩
  | .hbm, ⟨8, _⟩ => ⟨S_, .i32⟩
  | .hbm, ⟨9, _⟩ => ⟨S2x1x2048x2048, .i32⟩
  | .hbm, ⟨10, _⟩ => ⟨S2x1x2048x2048, .i1⟩
  | .hbm, ⟨11, _⟩ => ⟨S_, .f32⟩
  | .hbm, ⟨12, _⟩ => ⟨S_, .f32⟩
  | .hbm, ⟨13, _⟩ => ⟨S2x16x2048x2048, .i1⟩
  | .hbm, ⟨14, _⟩ => ⟨S2x16x2048x2048, .f32⟩
  | .hbm, ⟨15, _⟩ => ⟨S2x16x2048x2048, .f32⟩
  | .hbm, ⟨16, _⟩ => ⟨S_, .f32⟩
  | .hbm, ⟨17, _⟩ => ⟨S2x16x2048, .f32⟩
  | .hbm, ⟨18, _⟩ => ⟨S_, .f32⟩
  | .hbm, ⟨19, _⟩ => ⟨S2x16x2048, .f32⟩
  | .hbm, ⟨20, _⟩ => ⟨S2x16x2048, .f32⟩
  | .hbm, ⟨21, _⟩ => ⟨S2x16x2048x1, .f32⟩
  | .hbm, ⟨22, _⟩ => ⟨S2x16x2048x2048, .f32⟩
  | .hbm, ⟨23, _⟩ => ⟨S2x16x2048x2048, .f32⟩
  | .hbm, ⟨24, _⟩ => ⟨S2x16x2048x2048, .f32⟩
  | .hbm, ⟨25, _⟩ => ⟨S_, .f32⟩
  | .hbm, ⟨26, _⟩ => ⟨S2x16x2048, .f32⟩
  | .hbm, ⟨27, _⟩ => ⟨S2x16x2048x1, .f32⟩
  | .hbm, ⟨28, _⟩ => ⟨S2x16x2048x2048, .f32⟩
  | .hbm, ⟨29, _⟩ => ⟨S2x16x2048x2048, .f32⟩
  | .hbm, ⟨30, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  bcast_S_S2x16x2048x64 : S_.BroadcastsInDim S2x16x2048x64 (![] : Fin 0 → Fin S2x16x2048x64.rank)
  bcast_S_S2x1x2048x2048 : S_.BroadcastsInDim S2x1x2048x2048 (![] : Fin 0 → Fin S2x1x2048x2048.rank)
  bcast_S2x1x2048x2048_S2x16x2048x2048_0_1_2_3 : S2x1x2048x2048.BroadcastsInDim S2x16x2048x2048 (![0, 1, 2, 3] : Fin 4 → Fin S2x16x2048x2048.rank)
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Softmax.lean ====
/-
  Masked softmax attention, row by row, over the extended reals.

  One query row meets `n` key rows. The logit against key `c` is the scaled inner product
  `Σ_d (q_d · 1/8) · k_{c,d}`, replaced by the fill value `-10⁹` where the mask word is zero. The row's weights are
  `exp (x_c - max x) / Σ_k exp (x_k - max x)`, the maximum taken from `-∞`, and the output row is the weighted sum of
  the value rows. Two laws let another spelling of the same row meet this one: a quotient by `8` is the product with
  `1/8` on every extended real, and taking the maximum once more against the value the fold started from changes nothing.
-/
import Idealize.ShloMosaic.PureOps.Ideal
import Idealize.ShloMosaic.PureOps.Ideal.Laws

noncomputable section

namespace Cert.Attn

open Idealize.ShloMosaic

/-- The scale `1/8` (the reciprocal of the square root of the head dimension 64), as the f32 word the kernel multiplies by. -/
abbrev eighth : EReal := Ideal.ofBits .f32 0x3E000000#32
/-- The fill value `-10⁹` written where the mask is zero. -/
abbrev fill : EReal := Ideal.ofBits .f32 0xCE6E6B28#32
/-- The value a row's maximum is folded from: the word of `-∞`. -/
abbrev floor : EReal := Ideal.ofBits .f32 0xFF800000#32

/-- The masked, scaled logit of a query row against one key row. -/
def logit (qrow krow : Fin 64 → EReal) (w : BitVec 32) : EReal :=
  Scalar.select (IntOp.cmpi .eq w 0#32) fill (∑ d : Fin 64, qrow d * eighth * krow d)

variable {n : Nat}

/-- The maximum of a row of logits, folded from `floor`. -/
def rowMax (x : Fin n → EReal) : EReal := (Finset.univ : Finset (Fin n)).fold max floor x

/-- The shifted exponentials of a row. -/
def expRow (x : Fin n → EReal) (c : Fin n) : EReal := Ideal.exp (x c - rowMax x)

/-- The softmax weights of a row. -/
def weight (x : Fin n → EReal) (c : Fin n) : EReal := Ideal.div (expRow x c) (∑ k : Fin n, expRow x k)

/-- The fold of a maximum never falls below the value it starts from, so one more maximum against that value is idle. -/
theorem max_floor_rowMax (x : Fin n → EReal) : max floor (rowMax x) = rowMax x :=
  max_eq_right ((Finset.le_fold_max floor).2 (Or.inl le_rfl))

/-- The word `0x41000000` is the real number 8. -/
theorem ofBits_eight : Ideal.ofBits .f32 0x41000000#32 = ((8 : ℝ) : EReal) := by
  simp [Ideal.ofBits, Ideal.ieee, -EReal.coe_mul]; norm_num

/-- The word `0x3E000000` is the real number 1/8. -/
theorem eighth_eq : eighth = ((1 / 8 : ℝ) : EReal) := by
  simp [eighth, Ideal.ofBits, Ideal.ieee, -EReal.coe_mul]; norm_num

/-- A quotient by 8 is the product with 1/8, at the infinities too. -/
theorem div_eight (x : EReal) : Ideal.div x (Ideal.ofBits .f32 0x41000000#32) = x * eighth := by
  rw [ofBits_eight, eighth_eq]
  exact Ideal.div_coe (by norm_num : (8 : ℝ) ≠ 0) x

end Cert.Attn

end
-- ==== Proof.LibPlainDot.lean ====
/-
  A plain matrix product read at an index, over the extended reals.

  For dimension numbers that contract the left operand's axis 1 with the right operand's axis 0 and keep
  (left axis 0, right axis 1) as the result's axes, the contraction at result index `(a, b)` is
  `Σ_{k < K} l(a, k) · r(k, b)`: the same plain sum for a `tpu.matmul` into a zero accumulator and for the host's
  `dot_general`, whatever the rows' extent. The dimension record enters through four coordinate facts about how it
  reads its operands (for a printed record each holds by computation), so the lemmas serve every extent.
-/
import Idealize.ShloMosaic.Lib.ValueIdx
import Idealize.ShloMosaic.PureOps.Ideal.Laws

noncomputable section

namespace Cert.Lib.PlainDot

open Idealize.ShloMosaic Idealize.ShloMosaic.ValueIdx

variable {R K C : Nat} {φ₁ φ₂ : FTy}

/-- How a rows×inner by inner×cols dimension record reads its operands: one contracted axis of extent `K`; at result
    index `i` and contraction position `q` the left operand is read at `(i 0, q)` and the right at `(q, i 1)`. -/
structure Reads (d : DotDims (⟨2, ![R, K]⟩ : Shape) (⟨2, ![K, C]⟩ : Shape) (⟨2, ![R, C]⟩ : Shape)) : Prop where
  rank : d.contr.rank = 1
  size : d.contr.size ⟨0, by omega⟩ = K
  lhs0 : ∀ (i : (⟨2, ![R, C]⟩ : Shape).Idx) (q : d.contr.Idx), (d.lhsIdx i q 0).val = (i 0).val
  lhs1 : ∀ (i : (⟨2, ![R, C]⟩ : Shape).Idx) (q : d.contr.Idx), (d.lhsIdx i q 1).val = (q ⟨0, by omega⟩).val
  rhs0 : ∀ (i : (⟨2, ![R, C]⟩ : Shape).Idx) (q : d.contr.Idx), (d.rhsIdx i q 0).val = (q ⟨0, by omega⟩).val
  rhs1 : ∀ (i : (⟨2, ![R, C]⟩ : Shape).Idx) (q : d.contr.Idx), (d.rhsIdx i q 1).val = (i 1).val

variable {d : DotDims (⟨2, ![R, K]⟩ : Shape) (⟨2, ![K, C]⟩ : Shape) (⟨2, ![R, C]⟩ : Shape)}

/-- The sum over the record's contraction index is the sum over the inner axis' coordinate. -/
theorem sum_contr (h : Reads d) (l : FVec Ideal (⟨2, ![R, K]⟩ : Shape) φ₁) (r : FVec Ideal (⟨2, ![K, C]⟩ : Shape) φ₂)
    (a : Fin R) (b : Fin C) :
    ∑ q : d.contr.Idx, l (d.lhsIdx (ix2 a b) q) * r (d.rhsIdx (ix2 a b) q) = ∑ k : Fin K, l (ix2 a k) * r (ix2 k b) := by
  rw [← Equiv.sum_comp (contrEquiv1 d K h.rank h.size).symm]
  refine Finset.sum_congr rfl fun k _ => ?_
  have hk := contrEquiv1_symm_val d K h.rank h.size k
  have el : d.lhsIdx (ix2 a b) ((contrEquiv1 d K h.rank h.size).symm k) = ix2 a k := funext fun x => Fin.ext (by
    match x with
    | ⟨0, _⟩ => exact h.lhs0 _ _
    | ⟨1, _⟩ => exact (h.lhs1 _ _).trans hk)
  have er : d.rhsIdx (ix2 a b) ((contrEquiv1 d K h.rank h.size).symm k) = ix2 k b := funext fun x => Fin.ext (by
    match x with
    | ⟨0, _⟩ => exact (h.rhs0 _ _).trans hk
    | ⟨1, _⟩ => exact h.rhs1 _ _)
  rw [el, er]

/-- A `tpu.matmul` into the zero accumulator, at `(a, b)`. -/
theorem matmul_zero_apply (h : Reads d) (prec : Option ContractPrecision)
    (l : FVec Ideal (⟨2, ![R, K]⟩ : Shape) φ₁) (r : FVec Ideal (⟨2, ![K, C]⟩ : Shape) φ₂) (a : Fin R) (b : Fin C) :
    FloatOps.matmul d prec l r (constant (⟨2, ![R, C]⟩ : Shape) .f32 0x00000000#32) (ix2 a b)
      = ∑ k : Fin K, l (ix2 a k) * r (ix2 k b) :=
  (Ideal.matmul_constant_zero_apply d prec l r (ix2 a b)).trans (sum_contr h l r a b)

/-- The host's `dot_general`, at `(a, b)`. -/
theorem dotGeneral_apply (h : Reads d) (prec : Option ContractPrecision) (sched : HostSchedule)
    (l : FVec Ideal (⟨2, ![R, K]⟩ : Shape) φ₁) (r : FVec Ideal (⟨2, ![K, C]⟩ : Shape) φ₂) (a : Fin R) (b : Fin C) :
    FloatOps.dotGeneral d prec sched l r (ix2 a b) = ∑ k : Fin K, l (ix2 a k) * r (ix2 k b) :=
  (Ideal.dotGeneral_apply d prec sched l r (ix2 a b)).trans (sum_contr h l r a b)

end Cert.Lib.PlainDot

end
-- ==== Proof.LibColumnLayout.lean ====
/-
  Column forms of three layout operations, read at an index: a vector of `a` entries stood up as an `[a, 1]` column, an
  `[a, 1]` column laid down as a `[1, a]` row (both keep the row-major order, so entry `i` stays entry `i`), and an
  `[a, 1]` column broadcast along its unit axis to `[a, b]` (row `p` is `b` copies of the column's entry `p`).
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the column's entry `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.LibRowReduce.lean ====
/-
  A row reduction kept as a column and broadcast back, read at an index, over the extended reals.

  For an `[R, C]` array `z`: reduce along the columns (a maximum folded from the accumulator's value, or a sum), stand
  the `R` results up as an `[R, 1]` column, and broadcast the column back to `[R, C]`. At `(r, c)` the result is
  row `r`'s reduction, whatever `c`: the fold of `max` over `k ↦ z (r, k)`, or `Σ_k z (r, k)`.
-/
import Idealize.ShloMosaic.Lib.Pipeline.Value
import Idealize.ShloMosaic.Lib.ValueIdx
import Idealize.ShloMosaic.PureOps.Ideal.Laws
import proofs.«125433_j86517821214099_2_alg».proof.Proof.LibColumnLayout

noncomputable section

namespace Cert.Lib.RowReduce

open Idealize.ShloMosaic Idealize.ShloMosaic.ValueIdx

variable {R C : ℕ}

/-- The index of row `r` with the dropped column coordinate `k` put back is `(r, k)`. -/
theorem lift_row (hred : (⟨2, ![R, C]⟩ : Shape).Reduces [1] ⟨1, ![R]⟩) (r : Fin R) (k : Fin C) :
    hred.lift (ix1 r) k = ix2 r k :=
  funext fun a => Fin.ext (by match a with | ⟨0, _⟩ => rfl | ⟨1, _⟩ => rfl)

/-- A row's maximum, kept as a column and broadcast back, at `(r, c)`. -/
theorem max_keep_apply (z : FVec Ideal (⟨2, ![R, C]⟩ : Shape) .f32) (acc : BitVec 32)
    (hred : (⟨2, ![R, C]⟩ : Shape).Reduces [1] ⟨1, ![R]⟩) (hφ : FKind.Formats .f32)
    (hacc : acc = FKind.maximumf.neutral .f32 hφ)
    (hc : (⟨1, ![R]⟩ : Shape).ShapeCasts ⟨2, ![R, 1]⟩) (hb : (⟨2, ![R, 1]⟩ : Shape).Broadcasts ⟨2, ![R, C]⟩)
    (r : Fin R) (c : Fin C) :
    broadcastTo ⟨2, ![R, C]⟩ (shapeCast ⟨2, ![R, 1]⟩ (multiReduction .maximumf [1] ⟨1, ![R]⟩ z acc hred hφ hacc) hc) hb (ix2 r c)
      = (Finset.univ : Finset (Fin C)).fold max (Ideal.ofBits .f32 acc) (fun k => z (ix2 r k)) := by
  rw [Cert.ColumnLayout.broadcastTo_a1_ab_apply, Cert.ColumnLayout.shapeCast_a_a1_apply]
  refine (Ideal.multiReduction_maximumf_single z acc hred hφ hacc (ix1 r)).trans ?_
  exact congrArg (fun f : Fin C → EReal => (Finset.univ : Finset (Fin C)).fold max (Ideal.ofBits .f32 acc) f)
    (funext fun k => congrArg z (lift_row hred r k))

/-- A row's sum, kept as a column and broadcast back, at `(r, c)`. -/
theorem sum_keep_apply (z : FVec Ideal (⟨2, ![R, C]⟩ : Shape) .f32) (acc : BitVec 32)
    (hred : (⟨2, ![R, C]⟩ : Shape).Reduces [1] ⟨1, ![R]⟩) (hφ : FKind.Formats .f32)
    (hacc : acc = FKind.add.neutral .f32 hφ)
    (hc : (⟨1, ![R]⟩ : Shape).ShapeCasts ⟨2, ![R, 1]⟩) (hb : (⟨2, ![R, 1]⟩ : Shape).Broadcasts ⟨2, ![R, C]⟩)
    (r : Fin R) (c : Fin C) :
    broadcastTo ⟨2, ![R, C]⟩ (shapeCast ⟨2, ![R, 1]⟩ (multiReduction .add [1] ⟨1, ![R]⟩ z acc hred hφ hacc) hc) hb (ix2 r c)
      = ∑ k : Fin C, z (ix2 r k) := by
  rw [Cert.ColumnLayout.broadcastTo_a1_ab_apply, Cert.ColumnLayout.shapeCast_a_a1_apply]
  refine (Ideal.multiReduction_add_single z acc hred hφ hacc (ix1 r)).trans ?_
  exact Finset.sum_congr rfl fun k _ => congrArg z (lift_row hred r k)

end Cert.Lib.RowReduce

end
-- ==== Proof.KernelRows.lean ====
/-
  The kernel body's arithmetic, read at an index over the extended reals.

  At one grid point the body holds a block of 256 query rows `x0`, the head's 2048 key rows `x5` and value rows `x7`,
  and the 256 × 2048 block of mask words `x11`. It forms the scaled scores `(x0 · 1/8) · x5ᵀ` on the matrix unit, masks
  them, takes each row's softmax, stores the weights, and multiplies the weights by the value rows. The body's value is
  cut here into three stages — scores, masking, the softmax of an array's rows — and each stage is read at an index;
  together they say: the stored weight at `(r, c)` is the softmax weight `c` of row `r`'s masked logits, and the stored
  output at `(r, d)` is the sum over the keys `c` of that weight times the value entry `(c, d)`.
-/
import proofs.«125433_j86517821214099_2_alg».proof.Proof.Gen.KernelIdeal.Skeleton
import proofs.«125433_j86517821214099_2_alg».proof.Proof.Softmax
import proofs.«125433_j86517821214099_2_alg».proof.Proof.LibPlainDot
import proofs.«125433_j86517821214099_2_alg».proof.Proof.LibRowReduce
import Idealize.ShloMosaic.Lib.ValueLayout

noncomputable section

namespace Cert.KernelIdeal.Rows

open Cert.KernelIdeal Cert.KernelIdeal.Gen Idealize.ShloMosaic Idealize.ShloMosaic.ValueIdx

variable {F : FTy → Type} [FloatOps F]

/-! ## The three stages -/

/-- The scaled scores of the block's query rows against the key rows. -/
def scores (v0 : Vec F S1x256x64 .f32) (v5 : Vec F S1x2048x64 .bf16) : FVec F S256x2048 .f32 :=
  matmul dot_S256x64_S64x2048_S256x2048_1_0_0_1_n_n none
    (truncf .bf16 (mulf (shapeCast S256x64 v0 shapeCasts_S1x256x64_S256x64) (broadcast S256x64 (Scalar.ofBits .f32 0x3E000000#32))) bitsLt_bf16_f32)
    (transpose S64x2048 [1, 0] (shapeCast S2048x64 v5 shapeCasts_S1x2048x64_S2048x64) transposes_S2048x64_p1_0_S64x2048)
    (constant S256x2048 .f32 0x00000000#32)

/-- The scores with the fill value written where the mask word is zero. -/
def masked (v11 : Vec F S1x256x2048 .i32) (s : FVec F S256x2048 .f32) : FVec F S256x2048 .f32 :=
  select (cmpi .eq (shapeCast S256x2048 v11 shapeCasts_S1x256x2048_S256x2048) (broadcast S256x2048 0#32))
    (broadcast S256x2048 (Scalar.ofBits .f32 0xCE6E6B28#32)) s

/-- Each entry less its row's maximum, exponentiated. -/
def expo (z : FVec F S256x2048 .f32) : FVec F S256x2048 .f32 :=
  exp (subf z (broadcastTo S256x2048 (shapeCast S256x1
    (multiReduction .maximumf [1] S256 z 0xFF800000#32 reduces_S256x2048_S256 (.inl rfl) rfl) shapeCasts_S256_S256x1) broadcasts_S256x1_S256x2048))

/-- The softmax of each row. -/
def soft (z : FVec F S256x2048 .f32) : FVec F S256x2048 .f32 :=
  divf (expo z) (broadcastTo S256x2048 (shapeCast S256x1
    (multiReduction .add [1] S256 (expo z) 0x00000000#32 reduces_S256x2048_S256 (.inl rfl) rfl) shapeCasts_S256_S256x1) broadcasts_S256x1_S256x2048)

/-- The body's weights are the three stages composed. -/
theorem pay2_eq (v0 : Vec F S1x256x64 .f32) (v5 : Vec F S1x2048x64 .bf16) (v11 : Vec F S1x256x2048 .i32) :
    k0_pay2 v0 v5 v11 = soft (masked v11 (scores v0 v5)) := rfl

/-! ## Each stage at an index -/

/-- How the score product reads its operands: rows of the scaled queries against columns of the transposed keys. -/
theorem reads_qk : Cert.Lib.PlainDot.Reads dot_S256x64_S64x2048_S256x2048_1_0_0_1_n_n :=
  ⟨rfl, rfl, fun _ _ => rfl, fun _ _ => rfl, fun _ _ => rfl, fun _ _ => rfl⟩

/-- How the output product reads its operands: rows of the weights against columns of the values. -/
theorem reads_pv : Cert.Lib.PlainDot.Reads dot_S256x2048_S2048x64_S256x64_1_0_0_1_n_n :=
  ⟨rfl, rfl, fun _ _ => rfl, fun _ _ => rfl, fun _ _ => rfl, fun _ _ => rfl⟩

/-- The score of query row `r` against key row `c`: the inner product over the 64 head coordinates, the query scaled by 1/8. -/
theorem scores_apply (v0 : FVec Ideal S1x256x64 .f32) (v5 : FVec Ideal S1x2048x64 .bf16) (r : Fin 256) (c : Fin 2048) :
    scores (F := Ideal) v0 v5 (ix2 r c) = ∑ d : Fin 64, v0 (ix3 (0 : Fin 1) r d) * Attn.eighth * v5 (ix3 (0 : Fin 1) c d) := by
  unfold scores
  refine (Cert.Lib.PlainDot.matmul_zero_apply reads_qk none _ _ r c).trans ?_
  refine Finset.sum_congr rfl fun d _ => ?_
  rw [transpose_ix2_apply, shapeCast_1ab_ab_apply]
  show shapeCast S256x64 v0 shapeCasts_S1x256x64_S256x64 (ix2 r d) * Attn.eighth * v5 (ix3 (0 : Fin 1) c d) = _
  rw [shapeCast_1ab_ab_apply]

/-- Masking at `(r, c)`: the fill value where the mask word is zero, the score elsewhere. -/
theorem masked_apply (v11 : Vec Ideal S1x256x2048 .i32) (s : FVec Ideal S256x2048 .f32) (r : Fin 256) (c : Fin 2048) :
    masked (F := Ideal) v11 s (ix2 r c)
      = Scalar.select (IntOp.cmpi .eq (v11 (ix3 (0 : Fin 1) r c)) 0#32) Attn.fill (s (ix2 r c)) := by
  unfold masked
  show Scalar.select (IntOp.cmpi .eq (shapeCast S256x2048 v11 shapeCasts_S1x256x2048_S256x2048 (ix2 r c)) 0#32) Attn.fill (s (ix2 r c)) = _
  rw [shapeCast_1ab_ab_apply]

/-- The shifted exponential at `(r, c)` is that of row `r`. -/
theorem expo_apply (z : FVec Ideal S256x2048 .f32) (r : Fin 256) (c : Fin 2048) :
    expo (F := Ideal) z (ix2 r c) = Attn.expRow (fun k => z (ix2 r k)) c := by
  unfold expo
  exact congrArg (fun t => Ideal.exp (z (ix2 r c) - t))
    (Cert.Lib.RowReduce.max_keep_apply z 0xFF800000#32 reduces_S256x2048_S256 (.inl rfl) rfl shapeCasts_S256_S256x1
      broadcasts_S256x1_S256x2048 r c)

/-- The softmax of the rows at `(r, c)` is weight `c` of row `r`. -/
theorem soft_apply (z : FVec Ideal S256x2048 .f32) (r : Fin 256) (c : Fin 2048) :
    soft (F := Ideal) z (ix2 r c) = Attn.weight (fun k => z (ix2 r k)) c := by
  unfold soft
  exact congrArg₂ Ideal.div (expo_apply z r c)
    ((Cert.Lib.RowReduce.sum_keep_apply (expo (F := Ideal) z) 0x00000000#32 reduces_S256x2048_S256 (.inl rfl) rfl
      shapeCasts_S256_S256x1 broadcasts_S256x1_S256x2048 r c).trans (Finset.sum_congr rfl fun k _ => expo_apply z r k))

/-! ## The body's stored values -/

/-- Row `r`'s masked logits from the point's blocks. -/
abbrev logits (v0 : Vec Ideal S1x256x64 .f32) (v5 : Vec Ideal S1x2048x64 .bf16) (v11 : Vec Ideal S1x256x2048 .i32) (r : Fin 256) :
    Fin 2048 → EReal :=
  fun k => Attn.logit (fun d => v0 (ix3 (0 : Fin 1) r d)) (fun d => v5 (ix3 (0 : Fin 1) k d)) (v11 (ix3 (0 : Fin 1) r k))

/-- The weights the body computes, at `(r, c)`. -/
theorem pay2_apply (v0 : Vec Ideal S1x256x64 .f32) (v5 : Vec Ideal S1x2048x64 .bf16) (v11 : Vec Ideal S1x256x2048 .i32)
    (r : Fin 256) (c : Fin 2048) :
    k0_pay2 (F := Ideal) v0 v5 v11 (ix2 r c) = Attn.weight (logits v0 v5 v11 r) c := by
  rw [pay2_eq, soft_apply]
  refine congrArg (fun f => Attn.weight f c) (funext fun k => ?_)
  rw [masked_apply, scores_apply]
  rfl

/-- The stored weight block, at `(0, r, c)`. -/
theorem pay3_apply (v0 : Vec Ideal S1x256x64 .f32) (v5 : Vec Ideal S1x2048x64 .bf16) (v11 : Vec Ideal S1x256x2048 .i32)
    (u : Fin 1) (r : Fin 256) (c : Fin 2048) :
    k0_pay3 (F := Ideal) v0 v5 v11 (ix3 u r c) = Attn.weight (logits v0 v5 v11 r) c := by
  unfold k0_pay3
  exact (shapeCast_ab_1ab_apply _ _ u r c).trans (pay2_apply v0 v5 v11 r c)

/-- The stored output block, at `(0, r, d)`: the weights against the value rows. -/
theorem pay1_pay4_apply (v0 : Vec Ideal S1x256x64 .f32) (v5 : Vec Ideal S1x2048x64 .bf16) (v7 : Vec Ideal S1x2048x64 .bf16)
    (v11 : Vec Ideal S1x256x2048 .i32) (u : Fin 1) (r : Fin 256) (d : Fin 64) :
    k0_pay1 (F := Ideal) (k0_pay4 v0 v5 v7 v11) (ix3 u r d)
      = ∑ c : Fin 2048, Attn.weight (logits v0 v5 v11 r) c * v7 (ix3 (0 : Fin 1) c d) := by
  unfold k0_pay1
  refine (shapeCast_ab_1ab_apply _ _ u r d).trans ?_
  unfold k0_pay4
  refine (Cert.Lib.PlainDot.matmul_zero_apply reads_pv none _ _ r d).trans ?_
  refine Finset.sum_congr rfl fun c _ => ?_
  rw [shapeCast_1ab_ab_apply]
  exact congrArg (· * v7 (ix3 (0 : Fin 1) c d)) (pay2_apply v0 v5 v11 r c)

end Cert.KernelIdeal.Rows

end
-- ==== Proof.KernelBlocks.lean ====
/-
  From the grid's blocks to the two whole result arrays of the kernel's region.

  The region runs over the grid (batch `b < 2`, query tile `q < 8`, head `h < 16`). At a point it reads query rows
  `256 q … 256 q + 255` of the merged head `n = 16 b + h`, all of that head's key and value rows, and the same query rows
  of batch `b`'s mask, and writes back rows `256 q …` of head `n` of both results. So each result array is ONE
  function of the four arrays the region finds: at `(n, r, c)` the softmax weight `c` of row `(n, r)`'s masked logits,
  and at `(n, r, d)` the sum over the keys `c` of that weight times the value entry `(n, c, d)`; the mask row is that
  of batch `n / 16`. Every point writes back a block of these functions, and the blocks cover both arrays.
-/
import proofs.«125433_j86517821214099_2_alg».proof.Proof.Gen.KernelIdeal.Frame
import proofs.«125433_j86517821214099_2_alg».proof.Proof.KernelRows
import Idealize.ShloMosaic.Lib.Pipeline.Value

set_option maxRecDepth 16384

noncomputable section

namespace Cert.KernelIdeal.Arrays

open Cert.KernelIdeal Cert.KernelIdeal.Gen Idealize.ShloMosaic Idealize.ShloMosaic.TcCoe Idealize.ShloMosaic.ValueIdx
open Idealize.SL.Sem
open Idealize.ShloMosaic.Pipeline (Dat)

/-! ## The two result arrays as functions of the arrays the region finds -/

/-- The batch a merged head index belongs to. -/
def batchOf (n : Fin 32) : Fin 2 := ⟨n.val / 16, by omega⟩

/-- Row `r` of query tile `q`. -/
def rowOf (q : Fin 8) (r : Fin 256) : Fin 2048 := ⟨q.val * 256 + r.val, by omega⟩

/-- The masked logits of query row `(n, r)` against every key row of head `n`. -/
def rowLogits (Q : S32x2048x64.Idx → Elt Ideal .f32) (K : S32x2048x64.Idx → Elt Ideal .bf16)
    (M : S2x2048x2048.Idx → Elt Ideal .i32) (n : Fin 32) (r : Fin 2048) : Fin 2048 → EReal :=
  fun k => Attn.logit (fun d => Q (ix3 n r d)) (fun d => K (ix3 n k d)) (M (ix3 (batchOf n) r k))

/-- The attention weights: at `(n, r, c)` the softmax weight `c` of row `(n, r)`. -/
def weights (Q : S32x2048x64.Idx → Elt Ideal .f32) (K : S32x2048x64.Idx → Elt Ideal .bf16)
    (M : S2x2048x2048.Idx → Elt Ideal .i32) : S32x2048x2048.Idx → Elt Ideal .f32 :=
  fun i => Attn.weight (rowLogits Q K M (i 0) (i 1)) (i 2)

/-- The attention output: at `(n, r, d)` the weights of row `(n, r)` against column `d` of head `n`'s values. -/
def outputs (Q : S32x2048x64.Idx → Elt Ideal .f32) (K Vv : S32x2048x64.Idx → Elt Ideal .bf16)
    (M : S2x2048x2048.Idx → Elt Ideal .i32) : S32x2048x64.Idx → Elt Ideal .f32 :=
  fun i => ∑ c : Fin 2048, Attn.weight (rowLogits Q K M (i 0) (i 1)) c * Vv (ix3 (i 0) c (i 2))

/-! ## One point's blocks -/

/-- The weights a point stores are a block of `weights`: when the point's query, key and mask blocks are rows
    `256 q …` of head `n`, head `n`'s keys, and rows `256 q …` of batch `n / 16`'s mask. -/
theorem weights_point (Q : S32x2048x64.Idx → Elt Ideal .f32) (K : S32x2048x64.Idx → Elt Ideal .bf16)
    (M : S2x2048x2048.Idx → Elt Ideal .i32)
    (x0 : Vec Ideal S1x256x64 .f32) (x1 : Vec Ideal S1x2048x64 .bf16) (x3 : Vec Ideal S1x256x2048 .i32)
    (n : Fin 32) (q : Fin 8)
    (h0 : ∀ (r : Fin 256) (d : Fin 64), x0 (ix3 (0 : Fin 1) r d) = Q (ix3 n (rowOf q r) d))
    (h1 : ∀ (k : Fin 2048) (d : Fin 64), x1 (ix3 (0 : Fin 1) k d) = K (ix3 n k d))
    (h3 : ∀ (r : Fin 256) (k : Fin 2048), x3 (ix3 (0 : Fin 1) r k) = M (ix3 (batchOf n) (rowOf q r) k))
    (y : S1x256x2048.Idx) (i : S32x2048x2048.Idx)
    (hi0 : (i 0).val = n.val) (hi1 : (i 1).val = q.val * 256 + (y 1).val) (hi2 : (i 2).val = (y 2).val) :
    k0_pay3 (F := Ideal) x0 x1 x3 y = weights Q K M i := by
  obtain ⟨u, r, c, rfl⟩ : ∃ (u : Fin 1) (r : Fin 256) (c : Fin 2048), y = ix3 u r c := ⟨y 0, y 1, y 2, eq_ix3 y⟩
  have hi : i = ix3 n (rowOf q r) c := funext fun a => Fin.ext (by
    match a with
    | ⟨0, _⟩ => exact hi0
    | ⟨1, _⟩ => exact hi1
    | ⟨2, _⟩ => exact hi2)
  subst hi
  rw [Rows.pay3_apply]
  show Attn.weight (Rows.logits x0 x1 x3 r) c = Attn.weight (rowLogits Q K M n (rowOf q r)) c
  refine congrArg (fun f => Attn.weight f c) (funext fun k => ?_)
  show Attn.logit (fun d => x0 (ix3 (0 : Fin 1) r d)) (fun d => x1 (ix3 (0 : Fin 1) k d)) (x3 (ix3 (0 : Fin 1) r k))
    = Attn.logit (fun d => Q (ix3 n (rowOf q r) d)) (fun d => K (ix3 n k d)) (M (ix3 (batchOf n) (rowOf q r) k))
  rw [h3 r k, funext (h0 r), funext (h1 k)]

/-- The output a point stores is a block of `outputs`, under the same reading of its blocks and head `n`'s values. -/
theorem outputs_point (Q : S32x2048x64.Idx → Elt Ideal .f32) (K Vv : S32x2048x64.Idx → Elt Ideal .bf16)
    (M : S2x2048x2048.Idx → Elt Ideal .i32)
    (x0 : Vec Ideal S1x256x64 .f32) (x1 x2 : Vec Ideal S1x2048x64 .bf16) (x3 : Vec Ideal S1x256x2048 .i32)
    (n : Fin 32) (q : Fin 8)
    (h0 : ∀ (r : Fin 256) (d : Fin 64), x0 (ix3 (0 : Fin 1) r d) = Q (ix3 n (rowOf q r) d))
    (h1 : ∀ (k : Fin 2048) (d : Fin 64), x1 (ix3 (0 : Fin 1) k d) = K (ix3 n k d))
    (h2 : ∀ (k : Fin 2048) (d : Fin 64), x2 (ix3 (0 : Fin 1) k d) = Vv (ix3 n k d))
    (h3 : ∀ (r : Fin 256) (k : Fin 2048), x3 (ix3 (0 : Fin 1) r k) = M (ix3 (batchOf n) (rowOf q r) k))
    (y : S1x256x64.Idx) (i : S32x2048x64.Idx)
    (hi0 : (i 0).val = n.val) (hi1 : (i 1).val = q.val * 256 + (y 1).val) (hi2 : (i 2).val = (y 2).val) :
    k0_pay1 (F := Ideal) (k0_pay4 x0 x1 x2 x3) y = outputs Q K Vv M i := by
  obtain ⟨u, r, d, rfl⟩ : ∃ (u : Fin 1) (r : Fin 256) (d : Fin 64), y = ix3 u r d := ⟨y 0, y 1, y 2, eq_ix3 y⟩
  have hi : i = ix3 n (rowOf q r) d := funext fun a => Fin.ext (by
    match a with
    | ⟨0, _⟩ => exact hi0
    | ⟨1, _⟩ => exact hi1
    | ⟨2, _⟩ => exact hi2)
  subst hi
  rw [Rows.pay1_pay4_apply]
  show ∑ c : Fin 2048, Attn.weight (Rows.logits x0 x1 x3 r) c * x2 (ix3 (0 : Fin 1) c d)
    = ∑ c : Fin 2048, Attn.weight (rowLogits Q K M n (rowOf q r)) c * Vv (ix3 n c d)
  have hl : Rows.logits x0 x1 x3 r = rowLogits Q K M n (rowOf q r) := funext fun k => by
    show Attn.logit (fun d => x0 (ix3 (0 : Fin 1) r d)) (fun d => x1 (ix3 (0 : Fin 1) k d)) (x3 (ix3 (0 : Fin 1) r k))
      = Attn.logit (fun d => Q (ix3 n (rowOf q r) d)) (fun d => K (ix3 n k d)) (M (ix3 (batchOf n) (rowOf q r) k))
    rw [h3 r k, funext (h0 r), funext (h1 k)]
  rw [hl]
  exact Finset.sum_congr rfl fun c _ => by rw [h2 c d]

/-! ## The printed index maps, decided over the grid -/

theorem hz3 : (![0, 0, 0] : Fin 3 → Nat) = fun _ => 0 := funext fun a => by fin_cases a <;> rfl

/-- Both results' blocks sit at (head `n`, tile `q`, 0); the queries' block moves with them; the keys' and values'
    blocks are head `n`'s whole arrays; the mask's block is (batch `n / 16`, tile `q`, 0). -/
theorem idx_facts : ∀ t : Fin cfg0.N,
    win0_5.index t (0 : Fin 3) < 32 ∧ win0_5.index t (1 : Fin 3) < 8 ∧ win0_5.index t (2 : Fin 3) = 0
    ∧ win0_4.index t (0 : Fin 3) = win0_5.index t (0 : Fin 3) ∧ win0_4.index t (1 : Fin 3) = win0_5.index t (1 : Fin 3)
    ∧ win0_4.index t (2 : Fin 3) = 0
    ∧ win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) / 16 ∧ win0_3.index t (1 : Fin 3) = win0_5.index t (1 : Fin 3)
    ∧ win0_3.index t (2 : Fin 3) = 0 :=
  (by decide +kernel : ∀ t : Fin grid0.N, _)

/-- Every (head, tile) pair is some point's. -/
theorem idx_onto : ∀ (n : Fin 32) (q : Fin 8), ∃ t : Fin cfg0.N, win0_5.index t = ![n.val, q.val, 0] :=
  (by decide +kernel : ∀ (n : Fin 32) (q : Fin 8), ∃ t : Fin grid0.N, win0_5.index t = ![n.val, q.val, 0])

variable (m : (ℓ : Loc nD τ sig) → Buf (Elt Ideal) ℓ)

/-! ## Each window's block, read where the grid point says -/

/-- The query block at a point: rows `256 q …` of head `n`. -/
theorem read_q (c : Dev nD) (t : Fin cfg0.N) (n : Fin 32) (q : Fin 8)
    (e0 : win0_0.index t (0 : Fin 3) = n.val) (e1 : win0_0.index t (1 : Fin 3) = q.val) (e2 : win0_0.index t (2 : Fin 3) = 0)
    (r : Fin 256) (d : Fin 64) :
    iblk m c 0 t (ix3 (0 : Fin 1) r d) = V m c main_v0 (ix3 n (rowOf q r) d) := by
  show V m c main_v0 (((cfg0.win 0).blk t).view.emb (ix3 (0 : Fin 1) r d)) = V m c main_v0 (ix3 n (rowOf q r) d)
  refine congrArg (V m c main_v0) (funext fun a => Fin.ext ?_)
  match a with
  | ⟨0, _⟩ => show win0_0.index t (0 : Fin 3) * 1 + 1 * 0 = n.val; omega
  | ⟨1, _⟩ => show win0_0.index t (1 : Fin 3) * 256 + 1 * r.val = q.val * 256 + r.val; omega
  | ⟨2, _⟩ => show win0_0.index t (2 : Fin 3) * 64 + 1 * d.val = d.val; omega

/-- The key block at a point: all of head `n`. -/
theorem read_k (c : Dev nD) (t : Fin cfg0.N) (n : Fin 32)
    (e0 : win0_1.index t (0 : Fin 3) = n.val) (e1 : win0_1.index t (1 : Fin 3) = 0) (e2 : win0_1.index t (2 : Fin 3) = 0)
    (k : Fin 2048) (d : Fin 64) :
    iblk m c 1 t (ix3 (0 : Fin 1) k d) = V m c main_v2 (ix3 n k d) := by
  show V m c main_v2 (((cfg0.win 1).blk t).view.emb (ix3 (0 : Fin 1) k d)) = V m c main_v2 (ix3 n k d)
  refine congrArg (V m c main_v2) (funext fun a => Fin.ext ?_)
  match a with
  | ⟨0, _⟩ => show win0_1.index t (0 : Fin 3) * 1 + 1 * 0 = n.val; omega
  | ⟨1, _⟩ => show win0_1.index t (1 : Fin 3) * 2048 + 1 * k.val = k.val; omega
  | ⟨2, _⟩ => show win0_1.index t (2 : Fin 3) * 64 + 1 * d.val = d.val; omega

/-- The value block at a point: all of head `n`. -/
theorem read_v (c : Dev nD) (t : Fin cfg0.N) (n : Fin 32)
    (e0 : win0_2.index t (0 : Fin 3) = n.val) (e1 : win0_2.index t (1 : Fin 3) = 0) (e2 : win0_2.index t (2 : Fin 3) = 0)
    (k : Fin 2048) (d : Fin 64) :
    iblk m c 2 t (ix3 (0 : Fin 1) k d) = V m c main_v4 (ix3 n k d) := by
  show V m c main_v4 (((cfg0.win 2).blk t).view.emb (ix3 (0 : Fin 1) k d)) = V m c main_v4 (ix3 n k d)
  refine congrArg (V m c main_v4) (funext fun a => Fin.ext ?_)
  match a with
  | ⟨0, _⟩ => show win0_2.index t (0 : Fin 3) * 1 + 1 * 0 = n.val; omega
  | ⟨1, _⟩ => show win0_2.index t (1 : Fin 3) * 2048 + 1 * k.val = k.val; omega
  | ⟨2, _⟩ => show win0_2.index t (2 : Fin 3) * 64 + 1 * d.val = d.val; omega

/-- The mask block at a point: rows `256 q …` of batch `n / 16`. -/
theorem read_m (c : Dev nD) (t : Fin cfg0.N) (n : Fin 32) (q : Fin 8)
    (e0 : win0_3.index t (0 : Fin 3) = n.val / 16) (e1 : win0_3.index t (1 : Fin 3) = q.val) (e2 : win0_3.index t (2 : Fin 3) = 0)
    (r : Fin 256) (k : Fin 2048) :
    iblk m c 3 t (ix3 (0 : Fin 1) r k) = V m c main_v5 (ix3 (batchOf n) (rowOf q r) k) := by
  show V m c main_v5 (((cfg0.win 3).blk t).view.emb (ix3 (0 : Fin 1) r k)) = V m c main_v5 (ix3 (batchOf n) (rowOf q r) k)
  refine congrArg (V m c main_v5) (funext fun a => Fin.ext ?_)
  match a with
  | ⟨0, _⟩ => show win0_3.index t (0 : Fin 3) * 1 + 1 * 0 = n.val / 16; omega
  | ⟨1, _⟩ => show win0_3.index t (1 : Fin 3) * 256 + 1 * r.val = q.val * 256 + r.val; omega
  | ⟨2, _⟩ => show win0_3.index t (2 : Fin 3) * 2048 + 1 * k.val = k.val; omega

/-! ## What a point writes back -/

/-- The weights' array as the region's arrays give it. -/
abbrev W5 (c : Dev nD) : S32x2048x2048.Idx → Elt Ideal .f32 := weights (V m c main_v0) (V m c main_v2) (V m c main_v5)
/-- The outputs' array as the region's arrays give it. -/
abbrev W4 (c : Dev nD) : S32x2048x64.Idx → Elt Ideal .f32 := outputs (V m c main_v0) (V m c main_v2) (V m c main_v4) (V m c main_v5)

/-- Point `t` writes back block `t` of the weights. -/
theorem flushed5_eq (c : Dev nD) (t : Fin cfg0.N) :
    (dats m 0 c).flushed 5 t = ((cfg0.win 5).blk t).view.read (Elt Ideal) (W5 m c) := by
  show (cfg0.win 5).cut (grid0.coords t) ((dats m 0 c).after 5 t) = _
  rw [after0_5]
  unfold out0_5
  rw [View.canon_unit_zero hz3]
  simp only [View.ld_unit_zero (S := S1x256x64) hz3, View.ld_unit_zero (S := S1x2048x64) hz3, View.ld_unit_zero (S := S1x256x2048) hz3]
  obtain ⟨a0, a1, a2, b0, b1, b2, q0, q1, q2, k0, k1, k2, v0, v1, v2, m0, m1, m2⟩ := idx_facts t
  funext j
  refine weights_point (V m c main_v0) (V m c main_v2) (V m c main_v5) (iblk m c 0 t) (iblk m c 1 t) (iblk m c 3 t)
    ⟨win0_5.index t (0 : Fin 3), a0⟩ ⟨win0_5.index t (1 : Fin 3), a1⟩
    (read_q m c t _ _ q0 q1 q2) (read_k m c t _ k0 k1 k2) (read_m m c t _ _ m0 m1 m2) j
    (((cfg0.win 5).blk t).view.emb j) ?_ ?_ ?_
  · show win0_5.index t (0 : Fin 3) * 1 + 1 * (j 0).val = win0_5.index t (0 : Fin 3)
    have hj : (j 0).val < 1 := (j 0).isLt
    omega
  · show win0_5.index t (1 : Fin 3) * 256 + 1 * (j 1).val = win0_5.index t (1 : Fin 3) * 256 + (j 1).val
    omega
  · show win0_5.index t (2 : Fin 3) * 2048 + 1 * (j 2).val = (j 2).val
    omega

/-- Point `t` writes back block `t` of the outputs. -/
theorem flushed4_eq (c : Dev nD) (t : Fin cfg0.N) :
    (dats m 0 c).flushed 4 t = ((cfg0.win 4).blk t).view.read (Elt Ideal) (W4 m c) := by
  show (cfg0.win 4).cut (grid0.coords t) ((dats m 0 c).after 4 t) = _
  rw [after0_4]
  unfold out0_4
  rw [View.canon_unit_zero hz3]
  simp only [View.ld_unit_zero (S := S1x256x64) hz3, View.ld_unit_zero (S := S1x2048x64) hz3, View.ld_unit_zero (S := S1x256x2048) hz3]
  obtain ⟨a0, a1, a2, b0, b1, b2, q0, q1, q2, k0, k1, k2, v0, v1, v2, m0, m1, m2⟩ := idx_facts t
  funext j
  refine outputs_point (V m c main_v0) (V m c main_v2) (V m c main_v4) (V m c main_v5)
    (iblk m c 0 t) (iblk m c 1 t) (iblk m c 2 t) (iblk m c 3 t)
    ⟨win0_5.index t (0 : Fin 3), a0⟩ ⟨win0_5.index t (1 : Fin 3), a1⟩
    (read_q m c t _ _ q0 q1 q2) (read_k m c t _ k0 k1 k2) (read_v m c t _ v0 v1 v2) (read_m m c t _ _ m0 m1 m2) j
    (((cfg0.win 4).blk t).view.emb j) ?_ ?_ ?_
  · show win0_4.index t (0 : Fin 3) * 1 + 1 * (j 0).val = win0_5.index t (0 : Fin 3)
    have hj : (j 0).val < 1 := (j 0).isLt
    omega
  · show win0_4.index t (1 : Fin 3) * 256 + 1 * (j 1).val = win0_5.index t (1 : Fin 3) * 256 + (j 1).val
    omega
  · show win0_4.index t (2 : Fin 3) * 64 + 1 * (j 2).val = (j 2).val
    omega

/-! ## The blocks cover the arrays -/

theorem mem_blk5 (t : Fin cfg0.N) (i : S32x2048x2048.Idx) :
    i ∈ ((cfg0.win 5).blk t).view.set ↔ ∀ a : Fin 3, win0_5.index t a * S1x256x2048.size a ≤ (i a).val
      ∧ (i a).val < win0_5.index t a * S1x256x2048.size a + S1x256x2048.size a := by
  show i ∈ ((View.whole main_v6_1).slice (win0_5.rect t)).set ↔ _
  rw [View.set_slice_whole, Rect.mem_set_unit]
  exact Iff.rfl

theorem mem_blk4 (t : Fin cfg0.N) (i : S32x2048x64.Idx) :
    i ∈ ((cfg0.win 4).blk t).view.set ↔ ∀ a : Fin 3, win0_4.index t a * S1x256x64.size a ≤ (i a).val
      ∧ (i a).val < win0_4.index t a * S1x256x64.size a + S1x256x64.size a := by
  show i ∈ ((View.whole main_v6_0).slice (win0_4.rect t)).set ↔ _
  rw [View.set_slice_whole, Rect.mem_set_unit]
  exact Iff.rfl

/-- Every index of the weights' array is in the block of the point at (its head, its row's tile). -/
theorem cover5 (i : S32x2048x2048.Idx) :
    ∃ t : Fin cfg0.N, (cfg0.win 5).flush t = true ∧ i ∈ ((cfg0.win 5).blk t).view.set := by
  have hi0 : (i 0).val < 32 := (i 0).isLt
  have hi1 : (i 1).val < 2048 := (i 1).isLt
  have hi2 : (i 2).val < 2048 := (i 2).isLt
  obtain ⟨t, ht⟩ := idx_onto ⟨(i 0).val, hi0⟩ ⟨(i 1).val / 256, by omega⟩
  have p0 : win0_5.index t (0 : Fin 3) = (i 0).val := congrFun ht 0
  have p1 : win0_5.index t (1 : Fin 3) = (i 1).val / 256 := congrFun ht 1
  have p2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 2048 ≤ (i 2).val ∧ (i 2).val < win0_5.index t (2 : Fin 3) * 2048 + 2048; omega

/-- Every index of the outputs' array likewise. -/
theorem cover4 (i : S32x2048x64.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 256, by omega⟩
  have p0 : win0_5.index t (0 : Fin 3) = (i 0).val := congrFun ht 0
  have p1 : win0_5.index t (1 : Fin 3) = (i 1).val / 256 := congrFun ht 1
  obtain ⟨a0, a1, a2, b0, b1, b2, -⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 64 ≤ (i 2).val ∧ (i 2).val < win0_4.index t (2 : Fin 3) * 64 + 64; omega

/-! ## The two arrays after the region -/

/-- The weights' array after the region is `weights` of the arrays the region found. -/
theorem final5 (c : Dev nD) : (dats m 0 c).arrAt 5 cfg0.N = W5 m c :=
  (dats m 0 c).arrAt_eq_of_cover 5 (W5 m c) (fun t _ => flushed5_eq m c t) (cover5)

/-- The outputs' array after the region is `outputs` of the arrays the region found. -/
theorem final4 (c : Dev nD) : (dats m 0 c).arrAt 4 cfg0.N = W4 m c :=
  (dats m 0 c).arrAt_eq_of_cover 4 (W4 m c) (fun t _ => flushed4_eq m c t) (cover4)

end Cert.KernelIdeal.Arrays

end
-- ==== Proof.KernelRun.lean ====
/-
  The idealized kernel's whole run: what its two result buffers hold, as functions of the four arguments.

  Before the region the program reshapes the queries, keys and values to `[32, 2048, 64]` (narrowing keys and values to
  bf16) and drops the mask's unit axis; the region leaves its two arrays at the weights and outputs of those (every
  grid point writes back a block of one function, and the blocks cover the arrays); after the region the two arrays are
  reshaped back to four axes. The arguments end as they started.
-/
import proofs.«125433_j86517821214099_2_alg».proof.Proof.Gen.KernelIdeal.Frame
import proofs.«125433_j86517821214099_2_alg».proof.Proof.KernelBlocks
import Idealize.ShloMosaic.Lib.StableHlo.Run

set_option maxRecDepth 16384

noncomputable section

namespace Cert.KernelIdeal.Result

open Cert.KernelIdeal Cert.KernelIdeal.Gen Cert.KernelIdeal.Arrays
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The arrays the region finds -/

theorem V_v0 (c : Dev nD) :
    (V m c main_v0 : S32x2048x64.Idx → Elt Ideal .f32)
      = shapeCast S32x2048x64 (m ((c : Thread nD τ).loc main_arg0)) shapeCasts_S2x16x2048x64_S32x2048x64 := by
  show StableHlo.after hostOps0 (fun b => m (c, b)) (Proc.devRef .tc main_v0) = _
  after_results
  rfl

theorem V_v2 (c : Dev nD) :
    (V m c main_v2 : S32x2048x64.Idx → Elt Ideal .bf16)
      = truncf (F := Ideal) .bf16 (shapeCast S32x2048x64 (m ((c : Thread nD τ).loc main_arg1)) shapeCasts_S2x16x2048x64_S32x2048x64) bitsLt_bf16_f32 := by
  show StableHlo.after hostOps0 (fun b => m (c, b)) (Proc.devRef .tc main_v2) = _
  after_results
  rfl

theorem V_v4 (c : Dev nD) :
    (V m c main_v4 : S32x2048x64.Idx → Elt Ideal .bf16)
      = truncf (F := Ideal) .bf16 (shapeCast S32x2048x64 (m ((c : Thread nD τ).loc main_arg2)) shapeCasts_S2x16x2048x64_S32x2048x64) bitsLt_bf16_f32 := by
  show StableHlo.after hostOps0 (fun b => m (c, b)) (Proc.devRef .tc main_v4) = _
  after_results
  rfl

theorem V_v5 (c : Dev nD) :
    (V m c main_v5 : S2x2048x2048.Idx → Elt Ideal .i32)
      = shapeCast S2x2048x2048 (m ((c : Thread nD τ).loc main_arg3)) shapeCasts_S2x1x2048x2048_S2x2048x2048 := by
  show StableHlo.after hostOps0 (fun b => m (c, b)) (Proc.devRef .tc main_v5) = _
  after_results
  rfl

/-! ## The results -/

/-- The weights result: the region's weights of the reshaped arguments, reshaped back. -/
def weightsOf (q k : S2x16x2048x64.Idx → Elt Ideal .f32) (mask : S2x1x2048x2048.Idx → Elt Ideal .i32) :
    S2x16x2048x2048.Idx → Elt Ideal .f32 :=
  shapeCast S2x16x2048x2048
    (weights (shapeCast S32x2048x64 q shapeCasts_S2x16x2048x64_S32x2048x64)
      (truncf (F := Ideal) .bf16 (shapeCast S32x2048x64 k shapeCasts_S2x16x2048x64_S32x2048x64) bitsLt_bf16_f32)
      (shapeCast S2x2048x2048 mask shapeCasts_S2x1x2048x2048_S2x2048x2048))
    shapeCasts_S32x2048x2048_S2x16x2048x2048

/-- The output result likewise. -/
def outputsOf (q k v : S2x16x2048x64.Idx → Elt Ideal .f32) (mask : S2x1x2048x2048.Idx → Elt Ideal .i32) :
    S2x16x2048x64.Idx → Elt Ideal .f32 :=
  shapeCast S2x16x2048x64
    (outputs (shapeCast S32x2048x64 q shapeCasts_S2x16x2048x64_S32x2048x64)
      (truncf (F := Ideal) .bf16 (shapeCast S32x2048x64 k shapeCasts_S2x16x2048x64_S32x2048x64) bitsLt_bf16_f32)
      (truncf (F := Ideal) .bf16 (shapeCast S32x2048x64 v shapeCasts_S2x16x2048x64_S32x2048x64) bitsLt_bf16_f32)
      (shapeCast S2x2048x2048 mask shapeCasts_S2x1x2048x2048_S2x2048x2048))
    shapeCasts_S32x2048x64_S2x16x2048x64

/-- The region's weights array, in the arguments. -/
theorem W5_eq (c : Dev nD) :
    W5 m c = weights (shapeCast S32x2048x64 (m ((c : Thread nD τ).loc main_arg0)) shapeCasts_S2x16x2048x64_S32x2048x64)
      (truncf (F := Ideal) .bf16 (shapeCast S32x2048x64 (m ((c : Thread nD τ).loc main_arg1)) shapeCasts_S2x16x2048x64_S32x2048x64) bitsLt_bf16_f32)
      (shapeCast S2x2048x2048 (m ((c : Thread nD τ).loc main_arg3)) shapeCasts_S2x1x2048x2048_S2x2048x2048) := by
  show weights (V m c main_v0) (V m c main_v2) (V m c main_v5) = _
  rw [V_v0, V_v2, V_v5]

/-- The region's outputs array, in the arguments. -/
theorem W4_eq (c : Dev nD) :
    W4 m c = outputs (shapeCast S32x2048x64 (m ((c : Thread nD τ).loc main_arg0)) shapeCasts_S2x16x2048x64_S32x2048x64)
      (truncf (F := Ideal) .bf16 (shapeCast S32x2048x64 (m ((c : Thread nD τ).loc main_arg1)) shapeCasts_S2x16x2048x64_S32x2048x64) bitsLt_bf16_f32)
      (truncf (F := Ideal) .bf16 (shapeCast S32x2048x64 (m ((c : Thread nD τ).loc main_arg2)) shapeCasts_S2x16x2048x64_S32x2048x64) bitsLt_bf16_f32)
      (shapeCast S2x2048x2048 (m ((c : Thread nD τ).loc main_arg3)) shapeCasts_S2x1x2048x2048_S2x2048x2048) := by
  show outputs (V m c main_v0) (V m c main_v2) (V m c main_v4) (V m c main_v5) = _
  rw [V_v0, V_v2, V_v4, V_v5]

/-- The host lines after the region leave the outputs array reshaped in the first result buffer. -/
theorem tail7 (c : Dev nD) :
    Pipeline.afterTail₀ cfgs (dats m) 0 (V0 m) [hostOps1] c main_v7
      = outputsOf (m ((c : Thread nD τ).loc main_arg0)) (m ((c : Thread nD τ).loc main_arg1))
          (m ((c : Thread nD τ).loc main_arg2)) (m ((c : Thread nD τ).loc main_arg3)) := by
  have e : Pipeline.withArrays spec0 c (V0 m c) (fun w => (dats m 0 c).arrAt w cfg0.N) (Proc.devRef .tc main_v6_0) = W4 m c :=
    (Pipeline.withArrays_arr spec0 launch0.win.arr_inj c _ _ 4).trans (final4 m c)
  unfold Pipeline.afterTail₀
  show StableHlo.after hostOps1 _ (Proc.devRef .tc main_v7) = _
  after_results
  rw [e, W4_eq]
  rfl

/-- … and the weights array reshaped in the second. -/
theorem tail8 (c : Dev nD) :
    Pipeline.afterTail₀ cfgs (dats m) 0 (V0 m) [hostOps1] c main_v8
      = weightsOf (m ((c : Thread nD τ).loc main_arg0)) (m ((c : Thread nD τ).loc main_arg1))
          (m ((c : Thread nD τ).loc main_arg3)) := by
  have e : Pipeline.withArrays spec0 c (V0 m c) (fun w => (dats m 0 c).arrAt w cfg0.N) (Proc.devRef .tc main_v6_1) = W5 m c :=
    (Pipeline.withArrays_arr spec0 launch0.win.arr_inj c _ _ 5).trans (final5 m c)
  unfold Pipeline.afterTail₀
  show StableHlo.after hostOps1 _ (Proc.devRef .tc main_v8) = _
  after_results
  rw [e, W5_eq]
  rfl

/-! ## The run -/

/-- Every weakly fair execution of the idealized kernel terminates with the two results at `outputsOf` and `weightsOf`
    of the arguments, and the arguments unchanged. -/
theorem run : θ_run defs (onTc (τ := τ) (main (F := Ideal))) ⟨m, fun _ => 0, ρ⟩ fun r => ∀ c : Dev nD,
      r.2.mem ((c.tc : Thread nD τ).loc main_v7)
        = outputsOf (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_v8)
        = weightsOf (m ((c.tc : Thread nD τ).loc main_arg0)) (m ((c.tc : Thread nD τ).loc main_arg1))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v7 (Pipeline.mem_restRefs_of main_v7 (by decide) (by decide))).trans (tail7 m c),
      ((h c).2 main_v8 (Pipeline.mem_restRefs_of main_v8 (by decide) (by decide))).trans (tail8 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.RefRows.lean ====
/-
  The reference program, stage by stage, is the row specification.

  At `(b, h, r)` the reference's masked logits against key `c` are `Σ_d (q(b,h,r,d) / 8) · k(b,h,c,d)` with the fill
  value where `mask(b,0,r,c)` is zero. A quotient by 8 is the product with 1/8, so this is the specification's logit.
  Its row maximum is a fold of `max` from `-∞` over the keys, followed by one more `max` against `-∞`, which is idle;
  its sum starts from `0`. Hence its weights are the specification's softmax weights of that row and its output is
  their sum against the values `v(b,h,c,d)`.
-/
import proofs.«125433_j86517821214099_2_alg».proof.Proof.Gen.ReferenceIdeal.Read
import proofs.«125433_j86517821214099_2_alg».proof.Proof.Softmax
import Idealize.ShloMosaic.PureOps.Reduce

noncomputable section

namespace Cert.ReferenceIdeal.RefRows

open Cert.ReferenceIdeal Cert.ReferenceIdeal.Gen Cert.ReferenceIdeal.Read Idealize.ShloMosaic Idealize.ShloMosaic.ValueIdx

/-- The masked logits of query row `(b, h, r)` against every key row of head `(b, h)`. -/
def refLogits (q k : S2x16x2048x64.Idx → EReal) (mask : S2x1x2048x2048.Idx → BitVec 32)
    (b : Fin 2) (h : Fin 16) (r : Fin 2048) : Fin 2048 → EReal :=
  fun c => Attn.logit (fun d => q (ix4 b h r d)) (fun d => k (ix4 b h c d)) (mask (ix4 b (0 : Fin 1) r c))

variable (x0 x1 x2 : (⟨S2x16x2048x64, .f32⟩ : BufTy).Contents (Elt Ideal))
variable (x3 : (⟨S2x1x2048x2048, .i32⟩ : BufTy).Contents (Elt Ideal))

/-- The masked scores are the logits. -/
theorem v5_apply (b : Fin 2) (h : Fin 16) (r c : Fin 2048) :
    val_main_v5 (F := Ideal) x0 x1 x3 (ix4 b h r c) = refLogits x0 x1 x3 b h r c := by
  have e1 : idx_main_call0_v1 (ix4 b h r c) = ix4 b (0 : Fin 1) r c := funext fun a => Fin.ext (by
    match a with | ⟨0, _⟩ => rfl | ⟨1, _⟩ => rfl | ⟨2, _⟩ => rfl | ⟨3, _⟩ => rfl)
  have el : ∀ k : Fin 64, lidx_main_v2 (ix4 b h r c) k = ix4 b h r k := fun k => funext fun a => Fin.ext (by
    match a with | ⟨0, _⟩ => rfl | ⟨1, _⟩ => rfl | ⟨2, _⟩ => rfl | ⟨3, _⟩ => rfl)
  have er : ∀ k : Fin 64, ridx_main_v2 (ix4 b h r c) k = ix4 b h c k := fun k => funext fun a => Fin.ext (by
    match a with | ⟨0, _⟩ => rfl | ⟨1, _⟩ => rfl | ⟨2, _⟩ => rfl | ⟨3, _⟩ => rfl)
  rw [val_main_v5_apply, val_main_call0_v1_apply, val_main_v4_apply, val_main_v3_apply, val_main_c_apply,
    val_main_call0_v2_apply, val_main_call0_v0_apply, val_main_cst_0_apply, val_main_v2_apply, e1]
  show Scalar.select (IntOp.cmpi .eq (x3 (ix4 b (0 : Fin 1) r c)) 0#32) Attn.fill _ = Attn.logit _ _ _
  unfold Attn.logit
  refine congrArg (Scalar.select (IntOp.cmpi .eq (x3 (ix4 b (0 : Fin 1) r c)) 0#32) Attn.fill) ?_
  refine Finset.sum_congr rfl fun d _ => ?_
  rw [el, er, val_main_v1_apply, val_main_v0_apply, val_main_cst_apply]
  show Ideal.div (x0 (ix4 b h r d)) (Ideal.ofBits .f32 0x41000000#32) * x1 (ix4 b h c d) = _
  rw [Attn.div_eight]

/-- The dropped key coordinate put back into `(b, h, r)`. -/
theorem lift_key (hred : S2x16x2048x2048.Reduces [3] S2x16x2048) (b : Fin 2) (h : Fin 16) (r k : Fin 2048) :
    hred.lift (ix3 b h r) k = ix4 b h r k :=
  funext fun a => Fin.ext (by match a with | ⟨0, _⟩ => rfl | ⟨1, _⟩ => rfl | ⟨2, _⟩ => rfl | ⟨3, _⟩ => rfl)

theorem reduces_keys : S2x16x2048x2048.Reduces [3] S2x16x2048 := by decide

/-- The reduced maximum is the row's maximum folded from `-∞`. -/
theorem v6_apply (b : Fin 2) (h : Fin 16) (r : Fin 2048) :
    val_main_v6 (F := Ideal) x0 x1 x3 (ix3 b h r) = Attn.rowMax (refLogits x0 x1 x3 b h r) := by
  unfold val_main_v6
  refine (Host.reduce_eq_fold_single (FloatOps.maximumf (F := Ideal) (φ := .f32)) (val_main_v5 (F := Ideal) x0 x1 x3)
    (val_main_cst_1 (F := Ideal)) reducesTo_S2x16x2048x2048_S2x16x2048_d3 reduces_keys h_S_ (ix3 b h r)).trans ?_
  exact congrArg (fun f : Fin 2048 → EReal => (Finset.univ : Finset (Fin 2048)).fold max Attn.floor f)
    (funext fun k => (congrArg (val_main_v5 (F := Ideal) x0 x1 x3) (lift_key reduces_keys b h r k)).trans (v5_apply x0 x1 x3 b h r k))

/-- One more maximum against `-∞` leaves it. -/
theorem v8_apply (b : Fin 2) (h : Fin 16) (r : Fin 2048) :
    val_main_v8 (F := Ideal) x0 x1 x3 (ix3 b h r) = Attn.rowMax (refLogits x0 x1 x3 b h r) := by
  rw [val_main_v8_apply, val_main_v7_apply, val_main_cst_2_apply, v6_apply]
  exact Attn.max_floor_rowMax _

/-- The shifted exponentials. -/
theorem v12_apply (b : Fin 2) (h : Fin 16) (r c : Fin 2048) :
    val_main_v12 (F := Ideal) x0 x1 x3 (ix4 b h r c) = Attn.expRow (refLogits x0 x1 x3 b h r) c := by
  have e : idx_main_v9 (idx_main_v10 (ix4 b h r c)) = ix3 b h r := funext fun a => Fin.ext (by
    match a with | ⟨0, _⟩ => rfl | ⟨1, _⟩ => rfl | ⟨2, _⟩ => rfl)
  rw [val_main_v12_apply, val_main_v11_apply, v5_apply, val_main_v10_apply, val_main_v9_apply, e, v8_apply]
  rfl

/-- The weights. -/
theorem v16_apply (b : Fin 2) (h : Fin 16) (r c : Fin 2048) :
    val_main_v16 (F := Ideal) x0 x1 x3 (ix4 b h r c) = Attn.weight (refLogits x0 x1 x3 b h r) c := by
  have e : idx_main_v14 (idx_main_v15 (ix4 b h r c)) = ix3 b h r := funext fun a => Fin.ext (by
    match a with | ⟨0, _⟩ => rfl | ⟨1, _⟩ => rfl | ⟨2, _⟩ => rfl)
  have ek : ∀ k : Fin 2048, idx_main_v13 (ix3 b h r) k = ix4 b h r k := fun k => funext fun a => Fin.ext (by
    match a with | ⟨0, _⟩ => rfl | ⟨1, _⟩ => rfl | ⟨2, _⟩ => rfl | ⟨3, _⟩ => rfl)
  rw [val_main_v16_apply, v12_apply, val_main_v15_apply, val_main_v14_apply, e, val_main_v13_apply, val_main_cst_3_apply]
  show Ideal.div _ (Ideal.ofBits .f32 0x00000000#32 + _) = Attn.weight _ _
  rw [Ideal.ofBits_zero_f32, zero_add]
  unfold Attn.weight
  exact congrArg (Ideal.div _) (Finset.sum_congr rfl fun k _ => by rw [ek, v12_apply])

/-- The output. -/
theorem v17_apply (b : Fin 2) (h : Fin 16) (r : Fin 2048) (d : Fin 64) :
    val_main_v17 (F := Ideal) x0 x1 x2 x3 (ix4 b h r d)
      = ∑ c : Fin 2048, Attn.weight (refLogits x0 x1 x3 b h r) c * x2 (ix4 b h c d) := by
  have el : ∀ k : Fin 2048, lidx_main_v17 (ix4 b h r d) k = ix4 b h r k := fun k => funext fun a => Fin.ext (by
    match a with | ⟨0, _⟩ => rfl | ⟨1, _⟩ => rfl | ⟨2, _⟩ => rfl | ⟨3, _⟩ => rfl)
  have er : ∀ k : Fin 2048, ridx_main_v17 (ix4 b h r d) k = ix4 b h k d := fun k => funext fun a => Fin.ext (by
    match a with | ⟨0, _⟩ => rfl | ⟨1, _⟩ => rfl | ⟨2, _⟩ => rfl | ⟨3, _⟩ => rfl)
  rw [val_main_v17_apply]
  exact Finset.sum_congr rfl fun k _ => by rw [el, er, v16_apply]

end Cert.ReferenceIdeal.RefRows

end
-- ==== Proof.LibHeadMerge.lean ====
/-
  Two leading axes merged into one, or one split into two, by a reshape, read at an index.

  A reshape keeps the row-major position. So an `[a, b, c, d]` array reshaped to `[n, c, d]` with `n = a·b` reads, at
  `(k, i, j)` with `k = p·b + q`, the operand at `(p, q, i, j)`; and an `[n, c, d]` array reshaped to `[a, b, c, d]`
  reads, at `(p, q, i, j)`, the operand at `(p·b + q, i, j)`. With `b = 1` this is dropping or adding a unit second axis.
-/
import Idealize.ShloMosaic.Lib.Pipeline.Value
import Idealize.ShloMosaic.Lib.ValueIdx

namespace Cert.Lib.HeadMerge

open Idealize.ShloMosaic Idealize.ShloMosaic.ValueIdx

variable {α : Type}

/-- `[a, b, c, d] → [n, c, d]`: at `(k, i, j)`, `k = p·b + q`, the operand at `(p, q, i, j)`. -/
theorem merge_apply {a b n c d : ℕ} (x : (⟨4, ![a, b, c, d]⟩ : Shape).Idx → α)
    (h : (⟨4, ![a, b, c, d]⟩ : Shape).ShapeCasts ⟨3, ![n, c, d]⟩)
    (p : Fin a) (q : Fin b) (k : Fin n) (hk : k.val = p.val * b + q.val) (i : Fin c) (j : Fin d) :
    shapeCast ⟨3, ![n, c, d]⟩ x h (ix3 k i j) = x (ix4 p q i j) :=
  shapeCast_apply x h _ _ (by
    rw [Shape.rowMajor_val_four, Shape.rowMajor_val_three]
    show ((p.val * b + q.val) * c + i.val) * d + j.val = (k.val * c + i.val) * d + j.val
    rw [hk])

/-- `[n, c, d] → [a, b, c, d]`: at `(p, q, i, j)` the operand at `(k, i, j)`, `k = p·b + q`. -/
theorem split_apply {a b n c d : ℕ} (y : (⟨3, ![n, c, d]⟩ : Shape).Idx → α)
    (h : (⟨3, ![n, c, d]⟩ : Shape).ShapeCasts ⟨4, ![a, b, c, d]⟩)
    (p : Fin a) (q : Fin b) (k : Fin n) (hk : k.val = p.val * b + q.val) (i : Fin c) (j : Fin d) :
    shapeCast ⟨4, ![a, b, c, d]⟩ y h (ix4 p q i j) = y (ix3 k i j) :=
  shapeCast_apply y h _ _ (by
    rw [Shape.rowMajor_val_four, Shape.rowMajor_val_three]
    show (k.val * c + i.val) * d + j.val = ((p.val * b + q.val) * c + i.val) * d + j.val
    rw [hk])

end Cert.Lib.HeadMerge
-- ==== Proof.Bridge.lean ====
/-
  The reference's two results are the kernel's two arrays, reshaped.

  The kernel's region works on heads merged with batches, `n = 16 b + h`: its queries, keys and values are the
  `[2, 16, 2048, 64]` arguments reshaped to `[32, 2048, 64]` (keys and values also narrowed to bf16, which changes no
  extended real), its mask the `[2, 1, 2048, 2048]` argument with the unit axis dropped, and its results are reshaped
  back. A reshape keeps the row-major position, so entry `(n, r, ·)` of a merged array is entry `(b, h, r, ·)` of the
  argument, and the mask row of batch `n / 16 = b` is the reference's mask row. Row by row both sides are then the same
  logits, hence the same softmax weights and the same weighted sums of value rows.
-/
import proofs.«125433_j86517821214099_2_alg».proof.Proof.KernelBlocks
import proofs.«125433_j86517821214099_2_alg».proof.Proof.RefRows
import proofs.«125433_j86517821214099_2_alg».proof.Proof.LibHeadMerge

noncomputable section

namespace Cert.Bridge

open Idealize.ShloMosaic Idealize.ShloMosaic.ValueIdx
open Cert.KernelIdeal.Arrays Cert.ReferenceIdeal.RefRows Cert.ReferenceIdeal.Read

/-- The merged index of head `h` of batch `b`. -/
def headOf (b : Fin 2) (h : Fin 16) : Fin 32 := ⟨b.val * 16 + h.val, by omega⟩

theorem batchOf_headOf (b : Fin 2) (h : Fin 16) : batchOf (headOf b h) = b :=
  Fin.ext (by show (b.val * 16 + h.val) / 16 = b.val; omega)

variable (q k v : Cert.KernelIdeal.S2x16x2048x64.Idx → EReal) (mask : Cert.KernelIdeal.S2x1x2048x2048.Idx → BitVec 32)
variable (hq : Cert.KernelIdeal.S2x16x2048x64.ShapeCasts Cert.KernelIdeal.S32x2048x64)
variable (hm : Cert.KernelIdeal.S2x1x2048x2048.ShapeCasts Cert.KernelIdeal.S2x2048x2048)
variable (hb : FTy.bits .bf16 < FTy.bits .f32)

/-- The region's queries. -/
abbrev Q3 : Cert.KernelIdeal.S32x2048x64.Idx → Elt Ideal .f32 := shapeCast Cert.KernelIdeal.S32x2048x64 q hq
/-- The region's keys (or values): reshaped, then narrowed. -/
abbrev N3 (x : Cert.KernelIdeal.S2x16x2048x64.Idx → EReal) : Cert.KernelIdeal.S32x2048x64.Idx → Elt Ideal .bf16 :=
  truncf (F := Ideal) .bf16 (shapeCast Cert.KernelIdeal.S32x2048x64 x hq) hb
/-- The region's mask. -/
abbrev M3 : Cert.KernelIdeal.S2x2048x2048.Idx → Elt Ideal .i32 := shapeCast Cert.KernelIdeal.S2x2048x2048 mask hm

theorem Q3_apply (b : Fin 2) (h : Fin 16) (r : Fin 2048) (d : Fin 64) :
    Q3 q hq (ix3 (headOf b h) r d) = q (ix4 b h r d) :=
  Cert.Lib.HeadMerge.merge_apply q hq b h (headOf b h) rfl r d

theorem N3_apply (x : Cert.KernelIdeal.S2x16x2048x64.Idx → EReal) (b : Fin 2) (h : Fin 16) (r : Fin 2048) (d : Fin 64) :
    N3 hq hb x (ix3 (headOf b h) r d) = x (ix4 b h r d) :=
  Cert.Lib.HeadMerge.merge_apply x hq b h (headOf b h) rfl r d

theorem M3_apply (b : Fin 2) (r c : Fin 2048) :
    M3 mask hm (ix3 b r c) = mask (ix4 b (0 : Fin 1) r c) :=
  Cert.Lib.HeadMerge.merge_apply mask hm b (0 : Fin 1) b (by show b.val = b.val * 1 + 0; omega) r c

/-- Row `(16 b + h, r)` of the region's arrays has the reference's logits of row `(b, h, r)`. -/
theorem rowLogits_eq (b : Fin 2) (h : Fin 16) (r : Fin 2048) :
    rowLogits (Q3 q hq) (N3 hq hb k) (M3 mask hm) (headOf b h) r = refLogits q k mask b h r := by
  funext c
  show Attn.logit (fun d => Q3 q hq (ix3 (headOf b h) r d)) (fun d => N3 hq hb k (ix3 (headOf b h) c d))
      (M3 mask hm (ix3 (batchOf (headOf b h)) r c))
    = Attn.logit (fun d => q (ix4 b h r d)) (fun d => k (ix4 b h c d)) (mask (ix4 b (0 : Fin 1) r c))
  rw [batchOf_headOf, M3_apply, funext (Q3_apply q hq b h r), funext (N3_apply hq hb k b h c)]

variable (hs8 : Cert.KernelIdeal.S32x2048x2048.ShapeCasts Cert.KernelIdeal.S2x16x2048x2048)
variable (hs7 : Cert.KernelIdeal.S32x2048x64.ShapeCasts Cert.KernelIdeal.S2x16x2048x64)

/-- The reference's weights are the kernel's weights array, reshaped to `[2, 16, 2048, 2048]`. -/
theorem weights_eq :
    val_main_v16 (F := Ideal) q k mask
      = shapeCast Cert.KernelIdeal.S2x16x2048x2048 (weights (Q3 q hq) (N3 hq hb k) (M3 mask hm)) hs8 := by
  funext i
  obtain ⟨b, h, r, c, rfl⟩ : ∃ (b : Fin 2) (h : Fin 16) (r c : Fin 2048), i = ix4 b h r c := ⟨i 0, i 1, i 2, i 3, eq_ix4 i⟩
  rw [v16_apply]
  refine Eq.trans ?_ (Cert.Lib.HeadMerge.split_apply _ hs8 b h (headOf b h) rfl r c).symm
  show _ = Attn.weight (rowLogits (Q3 q hq) (N3 hq hb k) (M3 mask hm) (headOf b h) r) c
  rw [rowLogits_eq]

/-- The reference's output is the kernel's outputs array, reshaped to `[2, 16, 2048, 64]`. -/
theorem outputs_eq :
    val_main_v17 (F := Ideal) q k v mask
      = shapeCast Cert.KernelIdeal.S2x16x2048x64 (outputs (Q3 q hq) (N3 hq hb k) (N3 hq hb v) (M3 mask hm)) hs7 := by
  funext i
  obtain ⟨b, h, r, d, rfl⟩ : ∃ (b : Fin 2) (h : Fin 16) (r : Fin 2048) (d : Fin 64), i = ix4 b h r d := ⟨i 0, i 1, i 2, i 3, eq_ix4 i⟩
  rw [v17_apply]
  refine Eq.trans ?_ (Cert.Lib.HeadMerge.split_apply _ hs7 b h (headOf b h) rfl r d).symm
  show _ = ∑ c : Fin 2048, Attn.weight (rowLogits (Q3 q hq) (N3 hq hb k) (M3 mask hm) (headOf b h) r) c
      * N3 hq hb v (ix3 (headOf b h) c d)
  rw [rowLogits_eq]
  exact Finset.sum_congr rfl fun c _ => by rw [N3_apply]

end Cert.Bridge

end
-- ==== Proof.lean ====
/-
  Masked scaled-dot-product attention with the full weight matrix returned: a tiled kernel against its plain reference,
  equal as extended reals.

  Both programs take queries, keys, values `[2, 16, 2048, 64]` and an integer mask `[2, 1, 2048, 2048]`, and return the
  attention output and the attention weights. For each batch `b`, head `h` and query row `r` both form the logits
  `x_c = Σ_d (q(b,h,r,d) scaled by 1/8) · k(b,h,c,d)`, replaced by `-10⁹` where `mask(b,0,r,c) = 0`; the weights are
  `exp (x_c - max x) / Σ_k exp (x_k - max x)`; the output is `Σ_c weight_c · v(b,h,c,d)`.

  The kernel multiplies the query by the f32 word of `1/8` where the reference divides by `8`: on the extended reals a
  quotient by 8 IS the product with 1/8. The kernel merges batch and head into one axis of 32 and works on tiles of
  256 query rows over a grid of 2 × 8 × 16 points; each point writes back a block of one whole-array function, and the
  blocks cover the arrays. The reference takes its row maximum once more against `-∞`, which is idle. The roundings to
  bf16 before the two matrix products change no extended real. No finiteness of the inputs is used: the two sides are
  the same sums, maxima, exponentials and quotients of the same terms.

  The frames are the generated ones (the reference's is its generated run with the results dropped); the idealization
  rewrote nothing, so there is nothing to preserve.
-/
import proofs.«125433_j86517821214099_2_alg».proof.Defs
import proofs.«125433_j86517821214099_2_alg».proof.Proof.Gen.Kernel
import proofs.«125433_j86517821214099_2_alg».proof.Proof.Gen.Kernel.Skeleton
import proofs.«125433_j86517821214099_2_alg».proof.Proof.Gen.Kernel.Launch
import proofs.«125433_j86517821214099_2_alg».proof.Proof.Gen.Kernel.Points
import proofs.«125433_j86517821214099_2_alg».proof.Proof.Gen.Kernel.Frame
import proofs.«125433_j86517821214099_2_alg».proof.Proof.Gen.KernelIdeal
import proofs.«125433_j86517821214099_2_alg».proof.Proof.Gen.KernelIdeal.Skeleton
import proofs.«125433_j86517821214099_2_alg».proof.Proof.Gen.KernelIdeal.Launch
import proofs.«125433_j86517821214099_2_alg».proof.Proof.Gen.KernelIdeal.Points
import proofs.«125433_j86517821214099_2_alg».proof.Proof.Gen.KernelIdeal.Frame
import proofs.«125433_j86517821214099_2_alg».proof.Proof.Gen.ReferenceIdeal
import proofs.«125433_j86517821214099_2_alg».proof.Proof.Gen.Pre_finite_inputs
import proofs.«125433_j86517821214099_2_alg».proof.Proof.Gen.ReferenceIdeal.Run
import proofs.«125433_j86517821214099_2_alg».proof.Proof.Gen.ReferenceIdeal.Read
import proofs.«125433_j86517821214099_2_alg».proof.Proof.KernelRun
import proofs.«125433_j86517821214099_2_alg».proof.Proof.Bridge
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says of the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments the kernel ends with its two results at the reshaped outputs and weights of
    the reshaped arguments, and the reference ends with its two results at the same arrays: row by row the same logits,
    softmax weights and weighted sums. -/
theorem algebraic : Cert.algebraic_KernelIdeal_ReferenceIdeal := by
  intro m ρ m' ρ' _ hagree
  refine ⟨_, _, Cert.KernelIdeal.Result.run m ρ, ?_⟩
  refine (θ_run Cert.ReferenceIdeal.defs _ _).mono (fun _ h c => ⟨?_, ?_, (h c).2.2⟩)
    (Cert.ReferenceIdeal.Value.run (F := Ideal) m' ρ')
  · refine (h c).1.trans ((Cert.ReferenceIdeal.Read.val_main_v17_eq _ _ _ _).trans ?_)
    rw [(hagree c).1, (hagree c).2.1, (hagree c).2.2.1, (hagree c).2.2.2]
    exact Cert.Bridge.outputs_eq _ _ _ _ _ _ _ _
  · refine (h c).2.1.trans ((Cert.ReferenceIdeal.Read.val_main_v16_eq _ _ _).trans ?_)
    rw [(hagree c).1, (hagree c).2.1, (hagree c).2.2.2]
    exact Cert.Bridge.weights_eq _ _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
